-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 68
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x800000, .i32⟩
  | .hbm, ⟨39, _⟩ => ⟨S800000, .i32⟩
  | .hbm, ⟨40, _⟩ => ⟨S1x800000, .i32⟩
  | .hbm, ⟨41, _⟩ => ⟨S800000, .i32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S256x128, .f32⟩
  | .local _ .vmem, ⟨6, _⟩ => ⟨S256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S128x256, .f32⟩
  | .local _ .vmem, ⟨14, _⟩ => ⟨S128x256, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S256x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run, with its result named.

  @main is four segments: the host operations that aggregate the node features, the first kernel call, the host operations that
  aggregate the hidden features, the second kernel call. Every weakly fair execution runs them in order and terminates; at the end every
  buffer that outlives the regions holds what the fold of those four segments over the launch memory leaves in it. Read at the eight
  arguments that is the launch memory again; read at the result buffer it is the second region's result array.
-/
import proofs.«151576_j24257975288372_2_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the four segments' fold
    leaves there and the arguments as launched. -/
theorem run_fold : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Linear.lean ====
/-
  The dense half of one graph-convolution layer, index by index.

  A layer takes the aggregated neighbour features `a` and the node features `x`, both `[N, K]`, two weight matrices `wl`, `wr` of
  shape `[Ko, K]` and a bias `b` of length `Ko`, and returns the `[N, Ko]` array `a · wlᵀ + x · wrᵀ + b`: at `(p, q)` the sum over `k` of
  `a (p, k) · wl (q, k)`, plus the sum over `k` of `x (p, k) · wr (q, k)`, plus `b q`. The first layer is followed by the positive part,
  `max · 0`.

  One side adds the bias last and the other adds it between the two products. Addition on the extended reals is commutative and
  associative also at the infinities, so the two groupings agree with no finiteness assumed: `bias_between`.
-/
import Idealize.ShloMosaic.PureOps.Ideal
import Idealize.ShloMosaic.Lib.ValueIdx

noncomputable section

namespace Cert.Sage

open Idealize.ShloMosaic Idealize.ShloMosaic.ValueIdx
open scoped BigOperators

variable {N K Ko : ℕ}

/-- Row `p` of `u` against row `q` of `w`: the entry `(p, q)` of `u · wᵀ`. -/
def rowDot (u : FVec Ideal ⟨2, ![N, K]⟩ .f32) (w : FVec Ideal ⟨2, ![Ko, K]⟩ .f32) (p : Fin N) (q : Fin Ko) : EReal :=
  ∑ k : Fin K, u (ix2 p k) * w (ix2 q k)

/-- `a · wlᵀ + x · wrᵀ + b`, the bias added last. -/
def lin (a x : FVec Ideal ⟨2, ![N, K]⟩ .f32) (wl wr : FVec Ideal ⟨2, ![Ko, K]⟩ .f32) (b : FVec Ideal ⟨1, ![Ko]⟩ .f32) :
    FVec Ideal ⟨2, ![N, Ko]⟩ .f32 :=
  fun i => (rowDot a wl (i 0) (i 1) + rowDot x wr (i 0) (i 1)) + b (ix1 (i 1))

/-- The positive part, entry by entry; the zero is kept as the word both programs print. -/
def pos (v : FVec Ideal ⟨2, ![N, Ko]⟩ .f32) : FVec Ideal ⟨2, ![N, Ko]⟩ .f32 :=
  fun i => max (v i) (Ideal.ofBits .f32 0x00000000#32)

theorem lin_apply (a x : FVec Ideal ⟨2, ![N, K]⟩ .f32) (wl wr : FVec Ideal ⟨2, ![Ko, K]⟩ .f32) (b : FVec Ideal ⟨1, ![Ko]⟩ .f32)
    (p : Fin N) (q : Fin Ko) :
    lin a x wl wr b (ix2 p q) = (rowDot a wl p q + rowDot x wr p q) + b (ix1 q) := rfl

theorem pos_apply (v : FVec Ideal ⟨2, ![N, Ko]⟩ .f32) (i : (⟨2, ![N, Ko]⟩ : Shape).Idx) :
    pos v i = max (v i) (Ideal.ofBits .f32 0x00000000#32) := rfl

/-- The bias added between the two products instead of after them: the same extended real. -/
theorem bias_between (s t c : EReal) : (s + c) + t = (s + t) + c := add_right_comm s c t

end Cert.Sage

end
-- ==== Proof.KernelBody.lean ====
/-
  The two kernel bodies, each read at one entry of the block it stores.

  A body loads a block of aggregated rows `x0`, the same rows of node features `x1`, both weight matrices whole and the bias, and
  stores `x0 · x2ᵀ + x1 · x3ᵀ + bias` (the first body takes the positive part of that). On the extended reals the narrowing of the
  operands before each product is the identity, a product into the zero accumulator is the plain row-by-column sum, and the transposed
  weight read at `(k, q)` is the weight at `(q, k)`: entry `(p, q)` of the stored block is row `p` of `x0` against row `q` of `x2`, plus
  row `p` of `x1` against row `q` of `x3`, plus the bias at `q`.
-/
import proofs.«151576_j24257975288372_2_alg».proof.Proof.Gen.KernelIdeal.Skeleton
import proofs.«151576_j24257975288372_2_alg».proof.Proof.LibMatDot
import proofs.«151576_j24257975288372_2_alg».proof.Proof.Linear
import Idealize.ShloMosaic.Lib.ValueIdx
import Idealize.ShloMosaic.Lib.ValueLayout
import Idealize.ShloMosaic.Lib.Pipeline.Value

noncomputable section

namespace Cert.Sage.Body

open Idealize.ShloMosaic Idealize.ShloMosaic.ValueIdx Cert.KernelIdeal Cert.KernelIdeal.Gen
open scoped BigOperators

/-- A block of rows times a transposed weight matrix, into the zero accumulator, in the first body's shapes: at `(p, q)` row `p`
    of the block against row `q` of the weight. -/
theorem rows_matmul0 (u : FVec Ideal S5000x128 .bf16) (w : FVec Ideal S256x128 .bf16) (p : Fin 5000) (q : Fin 256) :
    matmul dot_S5000x128_S128x256_S5000x256_1_0_0_1_n_n none u (transpose S128x256 [1, 0] w transposes_S256x128_p1_0_S128x256)
        (constant S5000x256 .f32 0x00000000#32) (ix2 p q)
      = ∑ k : Fin 128, u (ix2 p k) * w (ix2 q k) := by
  refine (Cert.Lib.matmul_plain_zero_apply dot_S5000x128_S128x256_S5000x256_1_0_0_1_n_n.wf none u _ p q).trans ?_
  exact Finset.sum_congr rfl fun k _ => by rw [transpose_ix2_apply]

/-- The same in the second body's shapes. -/
theorem rows_matmul1 (u : FVec Ideal S5000x256 .bf16) (w : FVec Ideal S128x256 .bf16) (p : Fin 5000) (q : Fin 128) :
    matmul dot_S5000x256_S256x128_S5000x128_1_0_0_1_n_n none u (transpose S256x128 [1, 0] w transposes_S128x256_p1_0_S256x128)
        (constant S5000x128 .f32 0x00000000#32) (ix2 p q)
      = ∑ k : Fin 256, u (ix2 p k) * w (ix2 q k) := by
  refine (Cert.Lib.matmul_plain_zero_apply dot_S5000x256_S256x128_S5000x128_1_0_0_1_n_n.wf none u _ p q).trans ?_
  exact Finset.sum_congr rfl fun k _ => by rw [transpose_ix2_apply]

/-- The first body's stored value at `(p, q)`. -/
theorem pay0_apply (x0 x1 : Vec Ideal S5000x128 .f32) (x2 x3 : Vec Ideal S256x128 .f32) (x4 : Vec Ideal S256 .f32)
    (p : Fin 5000) (q : Fin 256) :
    k0_pay1 (F := Ideal) x0 x1 x2 x3 x4 (ix2 p q)
      = max ((rowDot x0 x2 p q + rowDot x1 x3 p q) + x4 (ix1 q)) (Ideal.ofBits .f32 0x00000000#32) := by
  unfold k0_pay1
  dsimp only
  rw [maximumf_apply, addf_apply, addf_apply, rows_matmul0, rows_matmul0, broadcastTo_1b_ab_apply, shapeCast_a_1a_apply,
    broadcast_apply, shapeCast_self]
  rfl

/-- The second body's stored value at `(p, q)`. -/
theorem pay1_apply (x0 x1 : Vec Ideal S5000x256 .f32) (x2 x3 : Vec Ideal S128x256 .f32) (x4 : Vec Ideal S128 .f32)
    (p : Fin 5000) (q : Fin 128) :
    k1_pay1 (F := Ideal) x0 x1 x2 x3 x4 (ix2 p q) = (rowDot x0 x2 p q + rowDot x1 x3 p q) + x4 (ix1 q) := by
  unfold k1_pay1
  dsimp only
  rw [addf_apply, addf_apply, rows_matmul1, rows_matmul1, broadcastTo_1b_ab_apply, shapeCast_a_1a_apply, shapeCast_self,
    shapeCast_self]
  rfl

end Cert.Sage.Body

end
-- ==== Proof.Region0.lean ====
/-
  What the first kernel call leaves in its result array, for any contents `V` the region is entered with.

  The grid has ten points. Point `t` stages rows `5000 t … 5000 t + 4999` of the aggregated features and of the node features, both
  weight matrices whole and the bias, and writes back rows `5000 t … 5000 t + 4999` of the result. By the body's value at an entry,
  what point `t` writes back is block `t` of ONE whole-array function of the arrays as the region finds them — the positive part of
  `agg · Wlᵀ + x · Wrᵀ + b` — and the ten blocks cover the `50000` rows, so the array ends holding that function.
-/
import proofs.«151576_j24257975288372_2_alg».proof.Proof.Gen.KernelIdeal.Frame
import proofs.«151576_j24257975288372_2_alg».proof.Proof.KernelBody

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The first layer's output as a function of the arrays the region finds: aggregated features, node features, the two weight
    matrices, the bias. -/
def hidden (c : Dev nD) : S50000x256.Idx → EReal :=
  pos (lin (N := 50000) (K := 128) (Ko := 256) (V c main_v22) (V c main_arg0) (V c main_arg2) (V c main_arg4) (V c main_arg3))

/-- The printed index maps over the ten points: the two row-blocked inputs move with the output's row block, every other block
    index is zero, and the output's row block at point `t` is `t`. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0
    ∧ win0_5.index t (0 : Fin 2) = t.val :=
  (by decide +kernel : ∀ t : Fin grid0.N, _)

/-- Where entry `j` of point `t`'s output block sits in the result array. -/
abbrev outAt (t : Fin cfg0.N) (j : S5000x256.Idx) : S50000x256.Idx := ((cfg0.win 5).blk t).view.emb j

/-- What point `t` writes back is block `t` of `hidden`. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S256x128) zeros2, View.ld_unit_zero (S := S256) zeros1]
  obtain ⟨e0, e1, e2, e3, e4, e5, e6, e7, e8, e9, -⟩ := idx_facts t
  funext j
  obtain ⟨p, q, rfl⟩ : ∃ (p : Fin 5000) (q : Fin 256), j = ix2 p q := ⟨j 0, j 1, eq_ix2 j⟩
  refine (Body.pay0_apply (iblk0 V c 0 t) (iblk0 V c 1 t) (iblk0 V c 2 t) (iblk0 V c 3 t) (iblk0 V c 4 t) p q).trans ?_
  show _ = hidden V c (outAt t (ix2 p q))
  have hq : outAt t (ix2 p q) 1 = q := Fin.ext (by
    show win0_5.index t (1 : Fin 2) * 256 + 1 * q.val = q.val
    rw [e9]; omega)
  -- a row-blocked input's entry (p, k) is the array's entry on the output entry's row
  have hagg : ∀ k : Fin 128, iblk0 V c 0 t (ix2 p k) = (V c main_v22 : S50000x128.Idx → EReal) (ix2 (outAt t (ix2 p q) 0) k) := fun k => by
    show (V c main_v22 : S50000x128.Idx → EReal) (((cfg0.win 0).blk t).view.emb (ix2 p k)) = _
    refine congrArg _ (funext fun a => Fin.ext ?_)
    match a with
    | ⟨0, _⟩ => show win0_0.index t (0 : Fin 2) * 5000 + 1 * p.val = win0_5.index t (0 : Fin 2) * 5000 + 1 * p.val; rw [e0]
    | ⟨1, _⟩ => show win0_0.index t (1 : Fin 2) * 128 + 1 * k.val = k.val; rw [e1]; omega
  have hx : ∀ k : Fin 128, iblk0 V c 1 t (ix2 p k) = (V c main_arg0 : S50000x128.Idx → EReal) (ix2 (outAt t (ix2 p q) 0) k) := fun k => by
    show (V c main_arg0 : S50000x128.Idx → EReal) (((cfg0.win 1).blk t).view.emb (ix2 p k)) = _
    refine congrArg _ (funext fun a => Fin.ext ?_)
    match a with
    | ⟨0, _⟩ => show win0_1.index t (0 : Fin 2) * 5000 + 1 * p.val = win0_5.index t (0 : Fin 2) * 5000 + 1 * p.val; rw [e2]
    | ⟨1, _⟩ => show win0_1.index t (1 : Fin 2) * 128 + 1 * k.val = k.val; rw [e3]; omega
  -- the weights and the bias are staged whole
  have hwl : ∀ k : Fin 128, iblk0 V c 2 t (ix2 q k) = (V c main_arg2 : S256x128.Idx → EReal) (ix2 q k) := fun k => by
    show (V c main_arg2 : S256x128.Idx → EReal) (((cfg0.win 2).blk t).view.emb (ix2 q k)) = _
    refine congrArg _ (funext fun a => Fin.ext ?_)
    match a with
    | ⟨0, _⟩ => show win0_2.index t (0 : Fin 2) * 256 + 1 * q.val = q.val; rw [e4]; omega
    | ⟨1, _⟩ => show win0_2.index t (1 : Fin 2) * 128 + 1 * k.val = k.val; rw [e5]; omega
  have hwr : ∀ k : Fin 128, iblk0 V c 3 t (ix2 q k) = (V c main_arg4 : S256x128.Idx → EReal) (ix2 q k) := fun k => by
    show (V c main_arg4 : S256x128.Idx → EReal) (((cfg0.win 3).blk t).view.emb (ix2 q k)) = _
    refine congrArg _ (funext fun a => Fin.ext ?_)
    match a with
    | ⟨0, _⟩ => show win0_3.index t (0 : Fin 2) * 256 + 1 * q.val = q.val; rw [e6]; omega
    | ⟨1, _⟩ => show win0_3.index t (1 : Fin 2) * 128 + 1 * k.val = k.val; rw [e7]; omega
  have hb : iblk0 V c 4 t (ix1 q) = (V c main_arg3 : S256.Idx → EReal) (ix1 q) := by
    show (V c main_arg3 : S256.Idx → EReal) (((cfg0.win 4).blk t).view.emb (ix1 q)) = _
    refine congrArg _ (funext fun a => Fin.ext ?_)
    match a with
    | ⟨0, _⟩ => show win0_4.index t (0 : Fin 1) * 256 + 1 * q.val = q.val; rw [e8]; omega
  unfold hidden
  rw [pos_apply]
  show _ = max ((rowDot _ _ (outAt t (ix2 p q) 0) (outAt t (ix2 p q) 1) + rowDot _ _ (outAt t (ix2 p q) 0) (outAt t (ix2 p q) 1))
    + (V c main_arg3 : S256.Idx → EReal) (ix1 (outAt t (ix2 p q) 1))) _
  rw [hq, hb]
  refine congrArg (max · _) (congrArg (· + _) (congrArg₂ (· + ·) ?_ ?_))
  · exact Finset.sum_congr rfl fun k _ => congrArg₂ (· * ·) (hagg k) (hwl k)
  · exact Finset.sum_congr rfl fun k _ => congrArg₂ (· * ·) (hx k) (hwr k)

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v23).slice (win0_5.rect t)).set ↔ _
  rw [View.set_slice_whole, Rect.mem_set_unit]
  exact Iff.rfl

/-- Row `r` is in the block of point `r / 5000`: the ten blocks cover the array. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, -, -, -, -, -, e9, e10⟩ := idx_facts t
  have e10' : win0_5.index t (0 : Fin 2) = (i 0).val / 5000 := e10
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- The result array after the region: the first layer's output of the arrays as the region finds them. -/
theorem result (c : Dev nD) : (dat0 V c).arrAt 5 cfg0.N = hidden V c :=
  (dat0 V c).arrAt_eq_of_cover 5 (hidden V c) (fun t _ => flushed_eq V c t) cover

end Cert.Sage.Region0

end
-- ==== Proof.Region1.lean ====
/-
  What the second kernel call leaves in its result array, for any contents `V` the region is entered with.

  The same ten-point grid over the rows, at the second layer's widths: point `t` stages rows `5000 t … 5000 t + 4999` of the
  aggregated hidden features and of the hidden features (`256` wide), both `[128, 256]` weight matrices whole and the bias, and
  writes back the same rows of the `[50000, 128]` result. What point `t` writes back is block `t` of `agg · Wlᵀ + h · Wrᵀ + b` of
  the arrays as the region finds them, and the ten blocks cover the rows.
-/
import proofs.«151576_j24257975288372_2_alg».proof.Proof.Gen.KernelIdeal.Frame
import proofs.«151576_j24257975288372_2_alg».proof.Proof.KernelBody

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The second layer's output as a function of the arrays the region finds: aggregated hidden features, hidden features, the two
    weight matrices, the bias. -/
def output (c : Dev nD) : S50000x128.Idx → EReal :=
  lin (N := 50000) (K := 256) (Ko := 128) (V c main_v46) (V c main_v23) (V c main_arg5) (V c main_arg7) (V c main_arg6)

/-- The printed index maps over the ten points: the two row-blocked inputs move with the output's row block, every other block
    index is zero, and the output's row block at point `t` is `t`. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0
    ∧ win1_5.index t (0 : Fin 2) = t.val :=
  (by decide +kernel : ∀ t : Fin grid1.N, _)

/-- Where entry `j` of point `t`'s output block sits in the result array. -/
abbrev outAt (t : Fin cfg1.N) (j : S5000x128.Idx) : S50000x128.Idx := ((cfg1.win 5).blk t).view.emb j

/-- What point `t` writes back is block `t` of `output`. -/
theorem flushed_eq (c : Dev nD) (t : Fin cfg1.N) :
    (dat1 V c).flushed 5 t = ((cfg1.win 5).blk t).view.read (Elt Ideal) (output V c) := by
  show (cfg1.win 5).cut (grid1.coords t) ((dat1 V c).after 5 t) = _
  rw [after1_5]
  unfold out1_5
  rw [View.canon_unit_zero zeros2]
  simp only [View.ld_unit_zero (S := S5000x256) zeros2, View.ld_unit_zero (S := S128x256) zeros2, View.ld_unit_zero (S := S128) zeros1]
  obtain ⟨e0, e1, e2, e3, e4, e5, e6, e7, e8, e9, -⟩ := idx_facts t
  funext j
  obtain ⟨p, q, rfl⟩ : ∃ (p : Fin 5000) (q : Fin 128), j = ix2 p q := ⟨j 0, j 1, eq_ix2 j⟩
  refine (Body.pay1_apply (iblk1 V c 0 t) (iblk1 V c 1 t) (iblk1 V c 2 t) (iblk1 V c 3 t) (iblk1 V c 4 t) p q).trans ?_
  show _ = output V c (outAt t (ix2 p q))
  have hq : outAt t (ix2 p q) 1 = q := Fin.ext (by
    show win1_5.index t (1 : Fin 2) * 128 + 1 * q.val = q.val
    rw [e9]; omega)
  -- a row-blocked input's entry (p, k) is the array's entry on the output entry's row
  have hagg : ∀ k : Fin 256, iblk1 V c 0 t (ix2 p k) = (V c main_v46 : S50000x256.Idx → EReal) (ix2 (outAt t (ix2 p q) 0) k) := fun k => by
    show (V c main_v46 : S50000x256.Idx → EReal) (((cfg1.win 0).blk t).view.emb (ix2 p k)) = _
    refine congrArg _ (funext fun a => Fin.ext ?_)
    match a with
    | ⟨0, _⟩ => show win1_0.index t (0 : Fin 2) * 5000 + 1 * p.val = win1_5.index t (0 : Fin 2) * 5000 + 1 * p.val; rw [e0]
    | ⟨1, _⟩ => show win1_0.index t (1 : Fin 2) * 256 + 1 * k.val = k.val; rw [e1]; omega
  have hx : ∀ k : Fin 256, iblk1 V c 1 t (ix2 p k) = (V c main_v23 : S50000x256.Idx → EReal) (ix2 (outAt t (ix2 p q) 0) k) := fun k => by
    show (V c main_v23 : S50000x256.Idx → EReal) (((cfg1.win 1).blk t).view.emb (ix2 p k)) = _
    refine congrArg _ (funext fun a => Fin.ext ?_)
    match a with
    | ⟨0, _⟩ => show win1_1.index t (0 : Fin 2) * 5000 + 1 * p.val = win1_5.index t (0 : Fin 2) * 5000 + 1 * p.val; rw [e2]
    | ⟨1, _⟩ => show win1_1.index t (1 : Fin 2) * 256 + 1 * k.val = k.val; rw [e3]; omega
  -- the weights and the bias are staged whole
  have hwl : ∀ k : Fin 256, iblk1 V c 2 t (ix2 q k) = (V c main_arg5 : S128x256.Idx → EReal) (ix2 q k) := fun k => by
    show (V c main_arg5 : S128x256.Idx → EReal) (((cfg1.win 2).blk t).view.emb (ix2 q k)) = _
    refine congrArg _ (funext fun a => Fin.ext ?_)
    match a with
    | ⟨0, _⟩ => show win1_2.index t (0 : Fin 2) * 128 + 1 * q.val = q.val; rw [e4]; omega
    | ⟨1, _⟩ => show win1_2.index t (1 : Fin 2) * 256 + 1 * k.val = k.val; rw [e5]; omega
  have hwr : ∀ k : Fin 256, iblk1 V c 3 t (ix2 q k) = (V c main_arg7 : S128x256.Idx → EReal) (ix2 q k) := fun k => by
    show (V c main_arg7 : S128x256.Idx → EReal) (((cfg1.win 3).blk t).view.emb (ix2 q k)) = _
    refine congrArg _ (funext fun a => Fin.ext ?_)
    match a with
    | ⟨0, _⟩ => show win1_3.index t (0 : Fin 2) * 128 + 1 * q.val = q.val; rw [e6]; omega
    | ⟨1, _⟩ => show win1_3.index t (1 : Fin 2) * 256 + 1 * k.val = k.val; rw [e7]; omega
  have hb : iblk1 V c 4 t (ix1 q) = (V c main_arg6 : S128.Idx → EReal) (ix1 q) := by
    show (V c main_arg6 : S128.Idx → EReal) (((cfg1.win 4).blk t).view.emb (ix1 q)) = _
    refine congrArg _ (funext fun a => Fin.ext ?_)
    match a with
    | ⟨0, _⟩ => show win1_4.index t (0 : Fin 1) * 128 + 1 * q.val = q.val; rw [e8]; omega
  unfold output
  show _ = (rowDot _ _ (outAt t (ix2 p q) 0) (outAt t (ix2 p q) 1) + rowDot _ _ (outAt t (ix2 p q) 0) (outAt t (ix2 p q) 1))
    + (V c main_arg6 : S128.Idx → EReal) (ix1 (outAt t (ix2 p q) 1))
  rw [hq, hb]
  refine congrArg (· + _) (congrArg₂ (· + ·) ?_ ?_)
  · exact Finset.sum_congr rfl fun k _ => congrArg₂ (· * ·) (hagg k) (hwl k)
  · exact Finset.sum_congr rfl fun k _ => congrArg₂ (· * ·) (hx k) (hwr k)

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v47).slice (win1_5.rect t)).set ↔ _
  rw [View.set_slice_whole, Rect.mem_set_unit]
  exact Iff.rfl

/-- Row `r` is in the block of point `r / 5000`: the ten blocks cover the array. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, e9, e10⟩ := idx_facts t
  have e10' : win1_5.index t (0 : Fin 2) = (i 0).val / 5000 := e10
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region: the second layer's output of the arrays as the region finds them. -/
theorem result (c : Dev nD) : (dat1 V c).arrAt 5 cfg1.N = output V c :=
  (dat1 V c).arrAt_eq_of_cover 5 (output V c) (fun t _ => flushed_eq V c t) cover

end Cert.Sage.Region1

end
-- ==== Proof.Agg.lean ====
/-
  The neighbour mean, carried whole.

  Both programs aggregate the same way, by the same host operations in the same order: the edge list's first row (negative entries
  wrapped by the node count) picks one feature row per edge, the rows are summed into their destination node (the edge list's second
  row), the destinations' edge counts are summed the same way from ones, and each node's sum is divided by its count or by one if it has
  none. The certificate never looks inside this function: each program applies it to a feature array it has shown equal to the other's,
  so it is stated here once, as the composition the reference's stages spell, for the two feature widths the layers use.
-/
import proofs.«151576_j24257975288372_2_alg».proof.Proof.Gen.ReferenceIdeal.Read

noncomputable section

namespace Cert.Sage

open Idealize.ShloMosaic Idealize.ShloMosaic.TcCoe Cert.ReferenceIdeal Cert.ReferenceIdeal.Read

variable {F : FTy → Type} [FloatOps F]

/-- The mean over in-neighbours of a `[50000, 128]` feature array along the edge list `e`. -/
def agg128 (x : (⟨S50000x128, .f32⟩ : BufTy).Contents (Elt F)) (e : (⟨S2x800000, .i32⟩ : BufTy).Contents (Elt F)) : (⟨S50000x128, .f32⟩ : BufTy).Contents (Elt F) :=
  val_main_v22 (F := F) x e

/-- The mean over in-neighbours of a `[50000, 256]` feature array along the edge list `e`: the same operations at the wider rows. -/
def agg256 (h : (⟨S50000x256, .f32⟩ : BufTy).Contents (Elt F)) (e : (⟨S2x800000, .i32⟩ : BufTy).Contents (Elt F)) : (⟨S50000x256, .f32⟩ : BufTy).Contents (Elt F) :=
  Host.divf
    (Host.scatterAdd scatter_S50000x256_S800000x1_S800000x256_1_0_0_1 (val_main_v43 (F := F)) (val_main_v44 (F := F) e)
      (Host.gather gather_S50000x256_S800000x1_S800000x256_1_0_n_n_0_1_1256 h (val_main_v41 (F := F) e)))
    (val_main_v53 (F := F) e)

/-- The reference's second aggregation is `agg256` of its first layer's output. -/
theorem ref_agg256 (x0 : (⟨S50000x128, .f32⟩ : BufTy).Contents (Elt F)) (x1 : (⟨S2x800000, .i32⟩ : BufTy).Contents (Elt F)) (x2 : (⟨S256x128, .f32⟩ : BufTy).Contents (Elt F))
    (x3 : (⟨S256, .f32⟩ : BufTy).Contents (Elt F)) (x4 : (⟨S256x128, .f32⟩ : BufTy).Contents (Elt F)) :
    val_main_v54 (F := F) x0 x1 x2 x3 x4 = agg256 (val_main_v31 (F := F) x0 x1 x2 x3 x4) x1 := rfl

end Cert.Sage

end
-- ==== Proof.Network.lean ====
/-
  The two-layer network as one function of the eight arguments.

  `hiddenOf`: the positive part of the first layer's dense step on the neighbour mean of the node features and the node features
  themselves. `outOf`: the second layer's dense step on the neighbour mean of the hidden features and the hidden features. Both
  programs are shown to end at `outOf` of their arguments.
-/
import proofs.«151576_j24257975288372_2_alg».proof.Proof.Agg
import proofs.«151576_j24257975288372_2_alg».proof.Proof.Linear

noncomputable section

namespace Cert.Sage

open Idealize.ShloMosaic Idealize.ShloMosaic.TcCoe Cert.ReferenceIdeal

/-- The hidden features: `max (mean(x) · wlᵀ + x · wrᵀ + b) 0`. -/
def hiddenOf (x : (⟨S50000x128, .f32⟩ : BufTy).Contents (Elt Ideal)) (e : (⟨S2x800000, .i32⟩ : BufTy).Contents (Elt Ideal)) (wl : (⟨S256x128, .f32⟩ : BufTy).Contents (Elt Ideal))
    (b : (⟨S256, .f32⟩ : BufTy).Contents (Elt Ideal)) (wr : (⟨S256x128, .f32⟩ : BufTy).Contents (Elt Ideal)) : (⟨S50000x256, .f32⟩ : BufTy).Contents (Elt Ideal) :=
  pos (lin (N := 50000) (K := 128) (Ko := 256) (agg128 (F := Ideal) x e) x wl wr b)

/-- The network's output: `mean(h) · wl₂ᵀ + h · wr₂ᵀ + b₂` of the hidden features `h`. -/
def outOf (x : (⟨S50000x128, .f32⟩ : BufTy).Contents (Elt Ideal)) (e : (⟨S2x800000, .i32⟩ : BufTy).Contents (Elt Ideal)) (wl : (⟨S256x128, .f32⟩ : BufTy).Contents (Elt Ideal))
    (b : (⟨S256, .f32⟩ : BufTy).Contents (Elt Ideal)) (wr : (⟨S256x128, .f32⟩ : BufTy).Contents (Elt Ideal)) (wl2 : (⟨S128x256, .f32⟩ : BufTy).Contents (Elt Ideal)) (b2 : (⟨S128, .f32⟩ : BufTy).Contents (Elt Ideal))
    (wr2 : (⟨S128x256, .f32⟩ : BufTy).Contents (Elt Ideal)) : (⟨S50000x128, .f32⟩ : BufTy).Contents (Elt Ideal) :=
  lin (N := 50000) (K := 256) (Ko := 128) (agg256 (F := Ideal) (hiddenOf x e wl b wr) e) (hiddenOf x e wl b wr) wl2 wr2 b2

end Cert.Sage

end
-- ==== Proof.KernelValue.lean ====
/-
  The fold of the kernel's four segments, read at the result buffer.

  The second region's result array is the second layer's dense step of the arrays that region is entered with. Those are: the
  neighbour mean (the second host stretch) of the first region's result array and the edge list; that result array itself; and three
  arguments, which nothing before has written. The first region's result array is in turn the first layer's output of the arrays it is
  entered with: the neighbour mean (the first host stretch) of the node features and the edge list, the node features, and three
  arguments. Each host stretch's aggregation is the same composition of operations the reference spells, so it is the shared
  `agg128` / `agg256`; substituting gives `outOf` of the eight arguments.
-/
import proofs.«151576_j24257975288372_2_alg».proof.Proof.Gen.KernelIdeal.Frame
import proofs.«151576_j24257975288372_2_alg».proof.Proof.Region0
import proofs.«151576_j24257975288372_2_alg».proof.Proof.Region1
import proofs.«151576_j24257975288372_2_alg».proof.Proof.Network
import Idealize.ShloMosaic.Lib.StableHlo.Run

set_option maxRecDepth 16384

noncomputable section

namespace Cert.Sage.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first region's entry contents: the first host stretch over the launch memory -/

/-- No operation of the first stretch writes an argument. -/
theorem W1_main_arg0 (c : Dev nD) : W1 m ρ c (Proc.devRef .tc main_arg0) = (m ((c : Thread nD τ).loc main_arg0)) := by
  show StableHlo.after hostOps0 (W0 m ρ c) (Proc.devRef .tc main_arg0) = _
  after_results_simp
theorem W1_main_arg1 (c : Dev nD) : W1 m ρ c (Proc.devRef .tc main_arg1) = (m ((c : Thread nD τ).loc main_arg1)) := by
  show StableHlo.after hostOps0 (W0 m ρ c) (Proc.devRef .tc main_arg1) = _
  after_results_simp
theorem W1_main_arg2 (c : Dev nD) : W1 m ρ c (Proc.devRef .tc main_arg2) = (m ((c : Thread nD τ).loc main_arg2)) := by
  show StableHlo.after hostOps0 (W0 m ρ c) (Proc.devRef .tc main_arg2) = _
  after_results_simp
theorem W1_main_arg3 (c : Dev nD) : W1 m ρ c (Proc.devRef .tc main_arg3) = (m ((c : Thread nD τ).loc main_arg3)) := by
  show StableHlo.after hostOps0 (W0 m ρ c) (Proc.devRef .tc main_arg3) = _
  after_results_simp
theorem W1_main_arg4 (c : Dev nD) : W1 m ρ c (Proc.devRef .tc main_arg4) = (m ((c : Thread nD τ).loc main_arg4)) := by
  show StableHlo.after hostOps0 (W0 m ρ c) (Proc.devRef .tc main_arg4) = _
  after_results_simp
theorem W1_main_arg5 (c : Dev nD) : W1 m ρ c (Proc.devRef .tc main_arg5) = (m ((c : Thread nD τ).loc main_arg5)) := by
  show StableHlo.after hostOps0 (W0 m ρ c) (Proc.devRef .tc main_arg5) = _
  after_results_simp
theorem W1_main_arg6 (c : Dev nD) : W1 m ρ c (Proc.devRef .tc main_arg6) = (m ((c : Thread nD τ).loc main_arg6)) := by
  show StableHlo.after hostOps0 (W0 m ρ c) (Proc.devRef .tc main_arg6) = _
  after_results_simp
theorem W1_main_arg7 (c : Dev nD) : W1 m ρ c (Proc.devRef .tc main_arg7) = (m ((c : Thread nD τ).loc main_arg7)) := by
  show StableHlo.after hostOps0 (W0 m ρ c) (Proc.devRef .tc main_arg7) = _
  after_results_simp

theorem V1_main_arg0 (c : Dev nD) : V1 m ρ c main_arg0 = (m ((c : Thread nD τ).loc main_arg0)) := W1_main_arg0 m ρ c
theorem V1_main_arg2 (c : Dev nD) : V1 m ρ c main_arg2 = (m ((c : Thread nD τ).loc main_arg2)) := W1_main_arg2 m ρ c
theorem V1_main_arg3 (c : Dev nD) : V1 m ρ c main_arg3 = (m ((c : Thread nD τ).loc main_arg3)) := W1_main_arg3 m ρ c
theorem V1_main_arg4 (c : Dev nD) : V1 m ρ c main_arg4 = (m ((c : Thread nD τ).loc main_arg4)) := W1_main_arg4 m ρ c

set_option maxHeartbeats 4000000 in
/-- The aggregated node features the first region stages are the shared neighbour mean of the arguments: the first stretch's
    operations are, one for one, the reference's. -/
theorem V1_agg (c : Dev nD) :
    (V1 m ρ c main_v22 : S50000x128.Idx → EReal) = agg128 (F := Ideal) (m ((c : Thread nD τ).loc main_arg0)) (m ((c : Thread nD τ).loc main_arg1)) := by
  show StableHlo.after hostOps0 (W0 m ρ c) (Proc.devRef .tc main_v22) = _
  after_results_simp
  rfl

/-! ## The first region's result array -/

/-- It holds the hidden features of the arguments. -/
theorem W2_hidden (c : Dev nD) :
    (W2 m ρ c (Proc.devRef .tc main_v23) : S50000x256.Idx → EReal)
      = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Region0.result (V1 m ρ) c).trans ?_)
  unfold Region0.hidden hiddenOf
  rw [V1_agg m ρ c, V1_main_arg0 m ρ c, V1_main_arg2 m ρ c, V1_main_arg3 m ρ c, V1_main_arg4 m ρ c]

/-! ## The second region's entry contents: the second host stretch over what the first region left -/

/-- The first region writes only its result array, so the other arguments are still the launch memory's. -/
theorem W2_main_arg1 (c : Dev nD) : W2 m ρ c (Proc.devRef .tc main_arg1) = (m ((c : Thread nD τ).loc main_arg1)) :=
  (W2_of_ne m ρ c main_arg1 (by decide)).trans (W1_main_arg1 m ρ c)
theorem W2_main_arg5 (c : Dev nD) : W2 m ρ c (Proc.devRef .tc main_arg5) = (m ((c : Thread nD τ).loc main_arg5)) :=
  (W2_of_ne m ρ c main_arg5 (by decide)).trans (W1_main_arg5 m ρ c)
theorem W2_main_arg6 (c : Dev nD) : W2 m ρ c (Proc.devRef .tc main_arg6) = (m ((c : Thread nD τ).loc main_arg6)) :=
  (W2_of_ne m ρ c main_arg6 (by decide)).trans (W1_main_arg6 m ρ c)
theorem W2_main_arg7 (c : Dev nD) : W2 m ρ c (Proc.devRef .tc main_arg7) = (m ((c : Thread nD τ).loc main_arg7)) :=
  (W2_of_ne m ρ c main_arg7 (by decide)).trans (W1_main_arg7 m ρ c)

/-- No operation of the second stretch writes an argument, or the first region's result. -/
theorem V3_main_arg5 (c : Dev nD) : V3 m ρ c main_arg5 = (m ((c : Thread nD τ).loc main_arg5)) := by
  show StableHlo.after hostOps1 (W2 m ρ c) (Proc.devRef .tc main_arg5) = _
  after_results_simp
  exact W2_main_arg5 m ρ c
theorem V3_main_arg6 (c : Dev nD) : V3 m ρ c main_arg6 = (m ((c : Thread nD τ).loc main_arg6)) := by
  show StableHlo.after hostOps1 (W2 m ρ c) (Proc.devRef .tc main_arg6) = _
  after_results_simp
  exact W2_main_arg6 m ρ c
theorem V3_main_arg7 (c : Dev nD) : V3 m ρ c main_arg7 = (m ((c : Thread nD τ).loc main_arg7)) := by
  show StableHlo.after hostOps1 (W2 m ρ c) (Proc.devRef .tc main_arg7) = _
  after_results_simp
  exact W2_main_arg7 m ρ c

theorem V3_hidden (c : Dev nD) : V3 m ρ c main_v23 = W2 m ρ c (Proc.devRef .tc main_v23) := by
  show StableHlo.after hostOps1 (W2 m ρ c) (Proc.devRef .tc main_v23) = _
  after_results_simp

set_option maxHeartbeats 4000000 in
/-- The aggregated hidden features the second region stages are the shared neighbour mean of the first region's result and the edge
    list. -/
theorem V3_agg (c : Dev nD) :
    (V3 m ρ c main_v46 : S50000x256.Idx → EReal)
      = agg256 (F := Ideal) (W2 m ρ c (Proc.devRef .tc main_v23)) (m ((c : Thread nD τ).loc main_arg1)) := by
  show StableHlo.after hostOps1 (W2 m ρ c) (Proc.devRef .tc main_v46) = _
  after_results_simp
  rw [W2_main_arg1 m ρ c]
  rfl

/-! ## The result -/

/-- The kernel's result buffer ends at `outOf` of the eight arguments. -/
theorem result_eq (c : Dev nD) :
    (W4 m ρ c (Proc.devRef .tc main_v47) : S50000x128.Idx → EReal)
      = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ((Region1.result (V3 m ρ) c).trans ?_)
  unfold Region1.output outOf
  rw [V3_agg m ρ c, V3_hidden m ρ c, V3_main_arg5 m ρ c, V3_main_arg6 m ρ c, V3_main_arg7 m ρ c, W2_hidden m ρ c]

end Cert.Sage.Fold

end
-- ==== Proof.Reference.lean ====
/-
  The reference computes `outOf`.

  Read one operation at a time, the reference's first layer at `(p, q)` is the row-by-column sum of the neighbour mean with the
  transposed left weight, plus the bias, plus the row-by-column sum of the node features with the transposed right weight, and then the
  maximum with zero; the second layer is the same on the hidden features without the maximum. A transposed weight read at `(k, q)` is
  the weight at `(q, k)`, and the bias broadcast over the rows read at `(p, q)` is the bias at `q`. Moving the bias past the second
  sum (`bias_between`) gives the network's function.
-/
import proofs.«151576_j24257975288372_2_alg».proof.Proof.Network
import Idealize.ShloMosaic.Lib.ValueIdx

noncomputable section

namespace Cert.Sage.Ref

open Idealize.ShloMosaic Idealize.ShloMosaic.TcCoe Idealize.ShloMosaic.ValueIdx Cert.ReferenceIdeal Cert.ReferenceIdeal.Read

/-- The reference's hidden features are `hiddenOf` of its arguments. -/
theorem hidden_eq (x0 : (⟨S50000x128, .f32⟩ : BufTy).Contents (Elt Ideal)) (x1 : (⟨S2x800000, .i32⟩ : BufTy).Contents (Elt Ideal)) (x2 : (⟨S256x128, .f32⟩ : BufTy).Contents (Elt Ideal))
    (x3 : (⟨S256, .f32⟩ : BufTy).Contents (Elt Ideal)) (x4 : (⟨S256x128, .f32⟩ : BufTy).Contents (Elt Ideal)) :
    val_main_v31 (F := Ideal) x0 x1 x2 x3 x4 = hiddenOf x0 x1 x2 x3 x4 := by
  funext i
  obtain ⟨p, q, rfl⟩ : ∃ (p : Fin 50000) (q : Fin 256), i = ix2 p q := ⟨i 0, i 1, eq_ix2 i⟩
  have hl : ∀ k : Fin 128, lidx_main_v24 (ix2 p q) k = ix2 p k := fun k =>
    funext fun a => Fin.ext (by match a with | ⟨0, _⟩ => rfl | ⟨1, _⟩ => rfl)
  have hr : ∀ k : Fin 128, idx_main_v23 (ridx_main_v24 (ix2 p q) k) = ix2 q k := fun k =>
    funext fun a => Fin.ext (by match a with | ⟨0, _⟩ => rfl | ⟨1, _⟩ => rfl)
  have hl' : ∀ k : Fin 128, lidx_main_v29 (ix2 p q) k = ix2 p k := fun k =>
    funext fun a => Fin.ext (by match a with | ⟨0, _⟩ => rfl | ⟨1, _⟩ => rfl)
  have hr' : ∀ k : Fin 128, idx_main_v28 (ridx_main_v29 (ix2 p q) k) = ix2 q k := fun k =>
    funext fun a => Fin.ext (by match a with | ⟨0, _⟩ => rfl | ⟨1, _⟩ => rfl)
  have hb : idx_main_v25 (idx_main_v26 (ix2 p q)) = ix1 q :=
    funext fun a => Fin.ext (by match a with | ⟨0, _⟩ => rfl)
  rw [val_main_v31_apply, val_main_v30_apply, val_main_v27_apply, val_main_v24_apply, val_main_v29_apply, val_main_v26_apply,
    val_main_v25_apply, val_main_call0_v0_apply, val_main_call0_cst_apply]
  simp only [val_main_v23_apply, val_main_v28_apply, hl, hr, hl', hr', hb, Ideal.addf_def, Ideal.maximumf_def, Ideal.ofBits_def]
  rw [bias_between]
  unfold hiddenOf
  rw [pos_apply, lin_apply]
  unfold rowDot agg128
  rfl

/-- The reference's result is `outOf` of its arguments. -/
theorem out_eq (x0 : (⟨S50000x128, .f32⟩ : BufTy).Contents (Elt Ideal)) (x1 : (⟨S2x800000, .i32⟩ : BufTy).Contents (Elt Ideal)) (x2 : (⟨S256x128, .f32⟩ : BufTy).Contents (Elt Ideal))
    (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal))
    (x7 : (⟨S128x256, .f32⟩ : BufTy).Contents (Elt Ideal)) :
    val_main_v62 (F := Ideal) x0 x1 x2 x3 x4 x5 x6 x7 = outOf x0 x1 x2 x3 x4 x5 x6 x7 := by
  funext i
  obtain ⟨p, q, rfl⟩ : ∃ (p : Fin 50000) (q : Fin 128), i = ix2 p q := ⟨i 0, i 1, eq_ix2 i⟩
  have hl : ∀ k : Fin 256, lidx_main_v56 (ix2 p q) k = ix2 p k := fun k =>
    funext fun a => Fin.ext (by match a with | ⟨0, _⟩ => rfl | ⟨1, _⟩ => rfl)
  have hr : ∀ k : Fin 256, idx_main_v55 (ridx_main_v56 (ix2 p q) k) = ix2 q k := fun k =>
    funext fun a => Fin.ext (by match a with | ⟨0, _⟩ => rfl | ⟨1, _⟩ => rfl)
  have hl' : ∀ k : Fin 256, lidx_main_v61 (ix2 p q) k = ix2 p k := fun k =>
    funext fun a => Fin.ext (by match a with | ⟨0, _⟩ => rfl | ⟨1, _⟩ => rfl)
  have hr' : ∀ k : Fin 256, idx_main_v60 (ridx_main_v61 (ix2 p q) k) = ix2 q k := fun k =>
    funext fun a => Fin.ext (by match a with | ⟨0, _⟩ => rfl | ⟨1, _⟩ => rfl)
  have hb : idx_main_v57 (idx_main_v58 (ix2 p q)) = ix1 q :=
    funext fun a => Fin.ext (by match a with | ⟨0, _⟩ => rfl)
  rw [val_main_v62_apply, val_main_v59_apply, val_main_v56_apply, val_main_v61_apply, val_main_v58_apply, val_main_v57_apply]
  simp only [val_main_v55_apply, val_main_v60_apply, hl, hr, hl', hr', hb, ref_agg256, hidden_eq, Ideal.addf_def]
  rw [bias_between]
  unfold outOf
  rw [lin_apply]
  unfold rowDot
  rfl

end Cert.Sage.Ref

end
-- ==== Proof.lean ====
/- The claim: a two-layer graph convolution with mean aggregation, computed by two kernel calls among host operations, equals its
   jnp reference on the extended reals.

   Each layer is `mean(f) · Wlᵀ + f · Wrᵀ + b` of a feature array `f` (the first followed by `max · 0`), where `mean(f)` sums, for each
   node, the feature rows of its in-neighbours along the edge list and divides by the in-degree or by one. The kernel leaves the
   neighbour mean to host operations and computes the dense step in a kernel call gridded over ten blocks of 5000 rows; the reference
   spells everything as host operations.

   * The neighbour mean is the same sequence of host operations in both programs, so it is carried as one function and never opened
     (Proof/Agg.lean); the whole network as one function of the eight arguments is `Cert.Sage.outOf` (Proof/Network.lean, over the
     dense step of Proof/Linear.lean).
   * The kernel: each body's stored block at an entry (Proof/KernelBody.lean, with the row-by-column reading of a matrix product of
     Proof/LibMatDot.lean); each region's result array as one whole-array function of the arrays it is entered with
     (Proof/Region0.lean, Proof/Region1.lean); the run of the four segments with the result buffer named (Proof/KernelRun.lean); and the
     segments' fold read back to the arguments (Proof/KernelValue.lean).
   * The reference: its generated run, read one operation at a time, is `outOf` (Proof/Reference.lean).
   The two sides differ in one place: the kernel adds the bias after both products, the reference between them. Addition on the extended
   reals is commutative and associative also at the infinities, so no finiteness of the inputs is used.

   The three frames: the two kernels' are the generated frame certificates, the reference's is its generated run with the result
   dropped. The idealization rewrote nothing, so `preserves` has nothing to show. -/
import proofs.«151576_j24257975288372_2_alg».proof.Defs
import proofs.«151576_j24257975288372_2_alg».proof.Proof.Gen.Kernel
import proofs.«151576_j24257975288372_2_alg».proof.Proof.Gen.Kernel.Frame
import proofs.«151576_j24257975288372_2_alg».proof.Proof.Gen.KernelIdeal
import proofs.«151576_j24257975288372_2_alg».proof.Proof.Gen.KernelIdeal.Frame
import proofs.«151576_j24257975288372_2_alg».proof.Proof.Gen.ReferenceIdeal
import proofs.«151576_j24257975288372_2_alg».proof.Proof.Gen.Pre_finite_inputs
import proofs.«151576_j24257975288372_2_alg».proof.Proof.Gen.ReferenceIdeal.Run
import proofs.«151576_j24257975288372_2_alg».proof.Proof.Gen.ReferenceIdeal.Read
import proofs.«151576_j24257975288372_2_alg».proof.Proof.KernelRun
import proofs.«151576_j24257975288372_2_alg».proof.Proof.KernelValue
import proofs.«151576_j24257975288372_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the result buffer at `outOf` of them. -/
theorem algebraic : Cert.algebraic_KernelIdeal_ReferenceIdeal := by
  intro m ρ m' ρ' _ hagree
  refine ⟨fun c => Cert.Sage.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.Fold.result_eq m ρ c), (h c).2⟩) (Cert.Sage.Run.run_fold m ρ)
  · refine (θ_run Cert.ReferenceIdeal.defs _ _).mono (fun r h c => ⟨?_, (h c).2⟩)
      (Cert.ReferenceIdeal.Value.run (F := Ideal) m' ρ')
    have e := hagree c
    refine (h c).1.trans ((Cert.ReferenceIdeal.Read.val_main_v62_eq (F := Ideal) m' c).trans
      ((Cert.Sage.Ref.out_eq _ _ _ _ _ _ _ _).trans ?_))
    rw [e.1, e.2.1, e.2.2.1, e.2.2.2.1, e.2.2.2.2.1, e.2.2.2.2.2.1, e.2.2.2.2.2.2.1, e.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
